-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x32x32 : Shape := ⟨4, ![32, 512, 32, 32]⟩
abbrev S32x512 : Shape := ⟨2, ![32, 512]⟩
abbrev S32 : Shape := ⟨1, ![32]⟩
abbrev S512x32 : Shape := ⟨2, ![512, 32]⟩
abbrev S512 : Shape := ⟨1, ![512]⟩
abbrev S_ : Shape := ⟨0, ![]⟩

class Facts : Prop where
  bcast_S_S32x512x32x32 : S_.BroadcastsInDim S32x512x32x32 (![] : Fin 0 → Fin S32x512x32x32.rank)
  reducesTo_S32x512x32x32_S_d0_1_2_3 : S32x512x32x32.ReducesTo [0, 1, 2, 3] S_
  h_S_ : 0 < S_.numel
  bcast_S_S32x512 : S_.BroadcastsInDim S32x512 (![] : Fin 0 → Fin S32x512.rank)
  reducesTo_S32x512_S_d0_1 : S32x512.ReducesTo [0, 1] S_
  bcast_S_S32 : S_.BroadcastsInDim S32 (![] : Fin 0 → Fin S32.rank)
  reducesTo_S32_S_d0 : S32.ReducesTo [0] S_
  bcast_S_S512x32 : S_.BroadcastsInDim S512x32 (![] : Fin 0 → Fin S512x32.rank)
  reducesTo_S512x32_S_d0_1 : S512x32.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_v13 : IVec S_ 1) (main_v16 : IVec S512x32 1) : IVec S_ 1 :=
  let main_c_5 : IVec S_ 1 := constantI S_ 1 1#1
  let main_v17 : IVec S_ 1 := (fun x v => Host.reduce IntOp.andi x v reducesTo_S512x32_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S32x512x32x32 .f32) (main_arg1 : FVec F S32x512 .f32) (main_arg2 : FVec F S32 .f32) (main_arg3 : FVec F S512x32 .f32) (main_arg4 : FVec F S512 .f32) : IVec S_ 1 :=
  let main_v0 : FVec F S32x512x32x32 .f32 := Host.absf main_arg0
  let main_cst : FVec F S_ .f32 := constant S_ .f32 0x7F800000#32
  let main_v1 : FVec F S32x512x32x32 .f32 := broadcastInDim S32x512x32x32 ![] bcast_S_S32x512x32x32 main_cst
  let main_v2 : IVec S32x512x32x32 1 := cmpf .olt main_v0 main_v1
  let main_c : IVec S_ 1 := constantI S_ 1 1#1
  let main_v3 : IVec S_ 1 := (fun x v => Host.reduce IntOp.andi x v reducesTo_S32x512x32x32_S_d0_1_2_3 h_S_) main_v2 main_c
  let main_v4 : FVec F S32x512 .f32 := Host.absf main_arg1
  let main_cst_0 : FVec F S_ .f32 := constant S_ .f32 0x7F800000#32
  let main_v5 : FVec F S32x512 .f32 := broadcastInDim S32x512 ![] bcast_S_S32x512 main_cst_0
  let main_v6 : IVec S32x512 1 := cmpf .olt main_v4 main_v5
  let main_c_1 : IVec S_ 1 := constantI S_ 1 1#1
  let main_v7 : IVec S_ 1 := (fun x v => Host.reduce IntOp.andi x v reducesTo_S32x512_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S512x32 .f32 := Host.absf main_arg3
  let main_cst_4 : FVec F S_ .f32 := constant S_ .f32 0x7F800000#32
  let main_v15 : FVec F S512x32 .f32 := broadcastInDim S512x32 ![] bcast_S_S512x32 main_cst_4
  let main_v16 : IVec S512x32 1 := cmpf .olt main_v14 main_v15
  fn_part1 (F := F) main_arg4 main_v13 main_v16
-- ==== Kernel.lean ====
abbrev S32x512x32x32 : Shape := ⟨4, ![32, 512, 32, 32]⟩
abbrev S32x512 : Shape := ⟨2, ![32, 512]⟩
abbrev S32 : Shape := ⟨1, ![32]⟩
abbrev S512x32 : Shape := ⟨2, ![512, 32]⟩
abbrev S512 : Shape := ⟨1, ![512]⟩
abbrev S32x512x1024 : Shape := ⟨3, ![32, 512, 1024]⟩
abbrev S1x32 : Shape := ⟨2, ![1, 32]⟩
abbrev S1x512 : Shape := ⟨2, ![1, 512]⟩
abbrev S2x512x1024 : Shape := ⟨3, ![2, 512, 1024]⟩
abbrev S2x512 : Shape := ⟨2, ![2, 512]⟩
abbrev S2x32 : Shape := ⟨2, ![2, 32]⟩
abbrev S2x512x1 : Shape := ⟨3, ![2, 512, 1]⟩

abbrev nBuf : Space → Nat
  | .hbm => 10
  | .vmem => 8
  | .smem => 0
  | _ => 0

abbrev bufTy : (tb : Table) → Fin (tcTables nBuf tb) → BufTy
  | .hbm, ⟨0, _⟩ => ⟨S32x512x32x32, .f32⟩
  | .hbm, ⟨1, _⟩ => ⟨S32x512, .f32⟩
  | .hbm, ⟨2, _⟩ => ⟨S32, .f32⟩
  | .hbm, ⟨3, _⟩ => ⟨S512x32, .f32⟩
  | .hbm, ⟨4, _⟩ => ⟨S512, .f32⟩
  | .hbm, ⟨5, _⟩ => ⟨S32x512x1024, .f32⟩
  | .hbm, ⟨6, _⟩ => ⟨S1x32, .f32⟩
  | .hbm, ⟨7, _⟩ => ⟨S1x512, .f32⟩
  | .hbm, ⟨8, _⟩ => ⟨S32x512x1024, .f32⟩
  | .hbm, ⟨9, _⟩ => ⟨S32x512x32x32, .f32⟩
  | .local _ .vmem, ⟨0, _⟩ => ⟨S2x512x1024, .f32⟩
  | .local _ .vmem, ⟨1, _⟩ => ⟨S2x512x1024, .f32⟩
  | .local _ .vmem, ⟨2, _⟩ => ⟨S32x512, .f32⟩
  | .local _ .vmem, ⟨3, _⟩ => ⟨S1x32, .f32⟩
  | .local _ .vmem, ⟨4, _⟩ => ⟨S512x32, .f32⟩
  | .local _ .vmem, ⟨5, _⟩ => ⟨S1x512, .f32⟩
  | .local _ .vmem, ⟨6, _⟩ => ⟨S2x512x1024, .f32⟩
  | .local _ .vmem, ⟨7, _⟩ => ⟨S2x512x1024, .f32⟩
  | _, _ => ⟨S32x512x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S32x512x32x32_S32x512x1024 : S32x512x32x32.ShapeCasts S32x512x1024
  shapeCasts_S32_S1x32 : S32.ShapeCasts S1x32
  shapeCasts_S512_S1x512 : S512.ShapeCasts S1x512
  inb_S2x512x1024_S2x512x1024_0_0_0 : ∀ a, (![0, 0, 0] : Fin 3 → Nat) a + S2x512x1024.size a ≤ S2x512x1024.size a
  h_S2x512x1024 : 0 < S2x512x1024.numel
  shapeCasts_S2x512x1024_S2x512x1024 : S2x512x1024.ShapeCasts S2x512x1024
  reduces_S2x512x1024_S2x512 : S2x512x1024.Reduces [2] S2x512
  inb_S32x512_S32x512_0_0 : ∀ a, (![0, 0] : Fin 2 → Nat) a + S32x512.size a ≤ S32x512.size a
  h_S32x512 : 0 < S32x512.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2x32 : S1x32.Broadcasts S2x32
  inb_S512x32_S512x32_0_0 : ∀ a, (![0, 0] : Fin 2 → Nat) a + S512x32.size a ≤ S512x32.size a
  h_S512x32 : 0 < S512x32.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2x512 : S1x512.Broadcasts S2x512
  shapeCasts_S2x512_S2x512x1 : S2x512.ShapeCasts S2x512x1
  shapeCasts_S2x512x1_S2x512x1 : S2x512x1.ShapeCasts S2x512x1
  broadcasts_S2x512x1_S2x512x1024 : S2x512x1.Broadcasts S2x512x1024
  shapeCasts_S32x512x1024_S32x512x32x32 : S32x512x1024.ShapeCasts S32x512x32x32
  dot_S2x512_S32x512_S2x32_1_1_0_0_n_n_wf : DotDims.WF S2x512 S32x512 S2x32 [1] [1] [0] [0] [] []
  dot_S2x32_S512x32_S2x512_1_1_0_0_n_n_wf : DotDims.WF S2x32 S512x32 S2x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x512x1024.size a ≤ S32x512x1024.size a
  hwx0_0 : ∀ i : grid0.Coords, EltTy.bits .f32 = 32 ∨ (Rect.block (s := S32x512x1024) S2x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x512.size a ≤ S32x512.size a
  hwx0_1 : ∀ i : grid0.Coords, EltTy.bits .f32 = 32 ∨ (Rect.block (s := S32x512) S32x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x32.size a ≤ S512x32.size a
  hwx0_3 : ∀ i : grid0.Coords, EltTy.bits .f32 = 32 ∨ (Rect.block (s := S512x32) S512x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x512x1024.size a ≤ S32x512x1024.size a
  hwx0_5 : ∀ i : grid0.Coords, EltTy.bits .f32 = 32 ∨ (Rect.block (s := S32x512x1024) S2x512x1024.size (cc0_transform_5 i) (hinb0_5 i)).WholeWords (EltTy.packing .f32)

variable [Facts₀]

def dot_S2x512_S32x512_S2x32_1_1_0_0_n_n : DotDims S2x512 S32x512 S2x32 where
  lhsContracting := [1]
  rhsContracting := [1]
  lhsNonContracting := [0]
  rhsNonContracting := [0]
  lhsBatch := []
  rhsBatch := []
  wf := dot_S2x512_S32x512_S2x32_1_1_0_0_n_n_wf
def dot_S2x32_S512x32_S2x512_1_1_0_0_n_n : DotDims S2x32 S512x32 S2x512 where
  lhsContracting := [1]
  rhsContracting := [1]
  lhsNonContracting := [0]
  rhsNonContracting := [0]
  lhsBatch := []
  rhsBatch := []
  wf := dot_S2x32_S512x32_S2x512_1_1_0_0_n_n_wf

abbrev win0_0 : Pipeline.Window sig grid0 :=
  Pipeline.Window.ofSpec (Memref.whole main_v0) S2x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S2x512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x512x32x32 : Shape := ⟨4, ![32, 512, 32, 32]⟩
abbrev S32x512 : Shape := ⟨2, ![32, 512]⟩
abbrev S32 : Shape := ⟨1, ![32]⟩
abbrev S512x32 : Shape := ⟨2, ![512, 32]⟩
abbrev S512 : Shape := ⟨1, ![512]⟩
abbrev S1x32 : Shape := ⟨2, ![1, 32]⟩
abbrev S1x512 : Shape := ⟨2, ![1, 512]⟩
abbrev S32x512x1024 : Shape := ⟨3, ![32, 512, 1024]⟩
abbrev S4x512x1024 : Shape := ⟨3, ![4, 512, 1024]⟩
abbrev S4x512 : Shape := ⟨2, ![4, 512]⟩
abbrev S4x32 : Shape := ⟨2, ![4, 32]⟩
abbrev S4x512x1 : Shape := ⟨3, ![4, 512, 1]⟩

abbrev nBuf : Space → Nat
  | .hbm => 12
  | .vmem => 8
  | .smem => 0
  | _ => 0

abbrev bufTy : (tb : Table) → Fin (tcTables nBuf tb) → BufTy
  | .hbm, ⟨0, _⟩ => ⟨S32x512x32x32, .f32⟩
  | .hbm, ⟨1, _⟩ => ⟨S32x512, .f32⟩
  | .hbm, ⟨2, _⟩ => ⟨S32, .f32⟩
  | .hbm, ⟨3, _⟩ => ⟨S512x32, .f32⟩
  | .hbm, ⟨4, _⟩ => ⟨S512, .f32⟩
  | .hbm, ⟨5, _⟩ => ⟨S512x32, .f32⟩
  | .hbm, ⟨6, _⟩ => ⟨S32x512, .f32⟩
  | .hbm, ⟨7, _⟩ => ⟨S1x32, .f32⟩
  | .hbm, ⟨8, _⟩ => ⟨S1x512, .f32⟩
  | .hbm, ⟨9, _⟩ => ⟨S32x512x1024, .f32⟩
  | .hbm, ⟨10, _⟩ => ⟨S32x512x1024, .f32⟩
  | .hbm, ⟨11, _⟩ => ⟨S32x512x32x32, .f32⟩
  | .local _ .vmem, ⟨0, _⟩ => ⟨S4x512x1024, .f32⟩
  | .local _ .vmem, ⟨1, _⟩ => ⟨S4x512x1024, .f32⟩
  | .local _ .vmem, ⟨2, _⟩ => ⟨S512x32, .f32⟩
  | .local _ .vmem, ⟨3, _⟩ => ⟨S1x32, .f32⟩
  | .local _ .vmem, ⟨4, _⟩ => ⟨S32x512, .f32⟩
  | .local _ .vmem, ⟨5, _⟩ => ⟨S1x512, .f32⟩
  | .local _ .vmem, ⟨6, _⟩ => ⟨S4x512x1024, .f32⟩
  | .local _ .vmem, ⟨7, _⟩ => ⟨S4x512x1024, .f32⟩
  | _, _ => ⟨S32x512x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S32x512_S512x32_1_0 : S32x512.Transposes [1, 0] S512x32
  transposes_S512x32_S32x512_1_0 : S512x32.Transposes [1, 0] S32x512
  shapeCasts_S32_S1x32 : S32.ShapeCasts S1x32
  shapeCasts_S512_S1x512 : S512.ShapeCasts S1x512
  shapeCasts_S32x512x32x32_S32x512x1024 : S32x512x32x32.ShapeCasts S32x512x1024
  inb_S4x512x1024_S4x512x1024_0_0_0 : ∀ a, (![0, 0, 0] : Fin 3 → Nat) a + S4x512x1024.size a ≤ S4x512x1024.size a
  h_S4x512x1024 : 0 < S4x512x1024.numel
  shapeCasts_S4x512x1024_S4x512x1024 : S4x512x1024.ShapeCasts S4x512x1024
  reduces_S4x512x1024_S4x512 : S4x512x1024.Reduces [2] S4x512
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4x32 : S1x32.Broadcasts S4x32
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4x512 : S1x512.Broadcasts S4x512
  shapeCasts_S4x512_S4x512x1 : S4x512.ShapeCasts S4x512x1
  shapeCasts_S4x512x1_S4x512x1 : S4x512x1.ShapeCasts S4x512x1
  broadcasts_S4x512x1_S4x512x1024 : S4x512x1.Broadcasts S4x512x1024
  shapeCasts_S32x512x1024_S32x512x32x32 : S32x512x1024.ShapeCasts S32x512x32x32
  dot_S4x512_S512x32_S4x32_1_0_0_1_n_n_wf : DotDims.WF S4x512 S512x32 S4x32 [1] [0] [0] [1] [] []
  dot_S4x32_S32x512_S4x512_1_0_0_1_n_n_wf : DotDims.WF S4x32 S32x512 S4x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x1024.size a ≤ S32x512x1024.size a
  hwx0_0 : ∀ i : grid0.Coords, EltTy.bits .f32 = 32 ∨ (Rect.block (s := S32x512x1024) S4x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S512x32.size a
  hwx0_1 : ∀ i : grid0.Coords, EltTy.bits .f32 = 32 ∨ (Rect.block (s := S512x32) S512x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x512.size a ≤ S32x512.size a
  hwx0_3 : ∀ i : grid0.Coords, EltTy.bits .f32 = 32 ∨ (Rect.block (s := S32x512) S32x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x512x1024.size a ≤ S32x512x1024.size a
  hwx0_5 : ∀ i : grid0.Coords, EltTy.bits .f32 = 32 ∨ (Rect.block (s := S32x512x1024) S4x512x1024.size (cc0_transform_5 i) (hinb0_5 i)).WholeWords (EltTy.packing .f32)

variable [Facts₀]

def dot_S4x512_S512x32_S4x32_1_0_0_1_n_n : DotDims S4x512 S512x32 S4x32 where
  lhsContracting := [1]
  rhsContracting := [0]
  lhsNonContracting := [0]
  rhsNonContracting := [1]
  lhsBatch := []
  rhsBatch := []
  wf := dot_S4x512_S512x32_S4x32_1_0_0_1_n_n_wf
def dot_S4x32_S32x512_S4x512_1_0_0_1_n_n : DotDims S4x32 S32x512 S4x512 where
  lhsContracting := [1]
  rhsContracting := [0]
  lhsNonContracting := [0]
  rhsNonContracting := [1]
  lhsBatch := []
  rhsBatch := []
  wf := dot_S4x32_S32x512_S4x512_1_0_0_1_n_n_wf

abbrev win0_0 : Pipeline.Window sig grid0 :=
  Pipeline.Window.ofSpec (Memref.whole main_v4) S4x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S32x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S4x512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.Spec.lean ====
/-
  The function both programs compute, on the extended reals.

  The input is an array `x` of 32 samples by 512 channels by 1024 positions, a weight matrix `w1` of 32 by 512 with a bias
  row `b1` of 32, and a weight matrix `w2` of 512 by 32 with a bias row `b2` of 512. For one sample, with rows
  `xr j r` (channel `j`, position `r`):

    mean j    = (∑ r, xr j r) * 2⁻¹⁰                        the average over the 1024 positions
    hidden k  = max ((∑ j, mean j * w1 (k, j)) + b1 k) 0    the first dense layer, then the positive part
    out c     = (∑ k, hidden k * w2 (c, k)) + b2 c          the second dense layer

  and the result at (sample, channel `c`, position) is `out c` of that sample's rows, the same at every position.
  The two constants are kept as the words the programs print (`2⁻¹⁰` and `0`), so neither is ever evaluated: both
  programs carry the same words.
-/
import Idealize.ShloMosaic.PureOps.Ideal
import Idealize.ShloMosaic.Lib.ValueIdx

noncomputable section

namespace Cert.PoolDense

open Idealize.ShloMosaic Idealize.ShloMosaic.ValueIdx

/-- The averaging factor, `1 / 1024`, as the word both programs print. -/
def invCount : EReal := Ideal.ofBits .f32 0x3A800000#32

/-- The floor of the positive part, `0`, as the word both programs print. -/
def floor0 : EReal := Ideal.ofBits .f32 0x00000000#32

/-- One channel's average over the positions. -/
def chanMean (xr : Fin 512 → Fin 1024 → EReal) (j : Fin 512) : EReal :=
  (∑ r : Fin 1024, xr j r) * invCount

/-- The first dense layer and the positive part, at hidden unit `k`. -/
def hiddenUnit (xr : Fin 512 → Fin 1024 → EReal) (w1 : (⟨2, ![32, 512]⟩ : Shape).Idx → EReal)
    (b1 : (⟨2, ![1, 32]⟩ : Shape).Idx → EReal) (k : Fin 32) : EReal :=
  max ((∑ j : Fin 512, chanMean xr j * w1 (ix2 k j)) + b1 (ix2 (0 : Fin 1) k)) floor0

/-- The second dense layer, at channel `c`: one sample's result, the same at every position. -/
def rowOut (xr : Fin 512 → Fin 1024 → EReal) (w1 : (⟨2, ![32, 512]⟩ : Shape).Idx → EReal)
    (b1 : (⟨2, ![1, 32]⟩ : Shape).Idx → EReal) (w2 : (⟨2, ![512, 32]⟩ : Shape).Idx → EReal)
    (b2 : (⟨2, ![1, 512]⟩ : Shape).Idx → EReal) (c : Fin 512) : EReal :=
  (∑ k : Fin 32, hiddenUnit xr w1 b1 k * w2 (ix2 c k)) + b2 (ix2 (0 : Fin 1) c)

/-- The whole result, 32 samples by 512 channels by 1024 positions: at `(n, c, r)` the row result of sample `n` at
    channel `c`. -/
def allRows (x : (⟨3, ![32, 512, 1024]⟩ : Shape).Idx → EReal) (w1 : (⟨2, ![32, 512]⟩ : Shape).Idx → EReal)
    (b1 : (⟨2, ![1, 32]⟩ : Shape).Idx → EReal) (w2 : (⟨2, ![512, 32]⟩ : Shape).Idx → EReal)
    (b2 : (⟨2, ![1, 512]⟩ : Shape).Idx → EReal) : (⟨3, ![32, 512, 1024]⟩ : Shape).Idx → EReal :=
  fun i => rowOut (fun j r => x (ix3 (i 0) j r)) w1 b1 w2 b2 (i 1)

/-! ## The arguments as the programs take them

Both programs are handed `x` as 32 by 512 by 32 by 32 and view it as 32 by 512 by 1024 (the two position axes read
row-major as one), view each bias as a one-row matrix, compute `allRows`, and view the result as 32 by 512 by 32 by 32
again. The four relabellings are the same on both sides, so they stay closed here. -/

theorem casts_x : (⟨4, ![32, 512, 32, 32]⟩ : Shape).ShapeCasts ⟨3, ![32, 512, 1024]⟩ := by decide
theorem casts_b1 : (⟨1, ![32]⟩ : Shape).ShapeCasts ⟨2, ![1, 32]⟩ := by decide
theorem casts_b2 : (⟨1, ![512]⟩ : Shape).ShapeCasts ⟨2, ![1, 512]⟩ := by decide
theorem casts_out : (⟨3, ![32, 512, 1024]⟩ : Shape).ShapeCasts ⟨4, ![32, 512, 32, 32]⟩ := by decide

/-- The result both programs return, as one function of the five arguments. -/
def result (x : (⟨4, ![32, 512, 32, 32]⟩ : Shape).Idx → EReal) (w1 : (⟨2, ![32, 512]⟩ : Shape).Idx → EReal)
    (b1 : (⟨1, ![32]⟩ : Shape).Idx → EReal) (w2 : (⟨2, ![512, 32]⟩ : Shape).Idx → EReal)
    (b2 : (⟨1, ![512]⟩ : Shape).Idx → EReal) : (⟨4, ![32, 512, 32, 32]⟩ : Shape).Idx → EReal :=
  shapeCast ⟨4, ![32, 512, 32, 32]⟩
    (allRows (shapeCast ⟨3, ![32, 512, 1024]⟩ x casts_x) w1 (shapeCast ⟨2, ![1, 32]⟩ b1 casts_b1) w2
      (shapeCast ⟨2, ![1, 512]⟩ b2 casts_b2)) casts_out

end Cert.PoolDense

end
-- ==== Proof.LibRowForms.lean ====
/-
  Forms read at an index, for a body that sums each row of a block over its last axis, sends the sums through dense layers,
  and spreads each result back along that axis. Every lemma is over extents left as variables, with indices written by
  coordinates, so it applies to a block of any height by unification.

  * `shapeCast_ab_ab1_apply`: an `[a, b]` array viewed `[a, b, 1]` reads, at `(p, q, 0)`, the operand at `(p, q)`: both
    indices sit at the same row-major position.
  * `broadcastTo_ab1_abc_apply`: an `[a, b, 1]` array spread to `[a, b, c]` reads, at `(p, q, r)`, the operand at
    `(p, q, 0)`: the last coordinate is forgotten.
  * `laneSum_abc_apply`: on the extended reals, the sum of an `[a, b, c]` array over its last axis is, at `(p, q)`, the
    sum over `r` of the entries `(p, q, r)`.
  * `matmul_rowsRows_apply`: on the extended reals, into a zero accumulator, an `[a, k]` array against a `[b, k]` array
    with both second axes contracted is, at `(p, q)`, the sum over `j` of `lhs (p, j) * rhs (q, j)`.
  * `matmul_rowsCols_apply`: the same for an `[a, k]` array against a `[k, b]` array contracted on the second and the
    first axis: the sum over `j` of `lhs (p, j) * rhs (j, q)`.
-/
import Idealize.ShloMosaic.Lib.ValueIdx
import Idealize.ShloMosaic.Lib.ValueLayout
import Idealize.ShloMosaic.Lib.Pipeline.Value
import Idealize.ShloMosaic.PureOps.Ideal.Laws

noncomputable section

namespace Cert.RowForms

open Idealize.ShloMosaic Idealize.ShloMosaic.ValueIdx

variable {α : Type}

/-! ## A trailing unit axis added, and spread -/

/-- An `[a, b]` array cast to `[a, b, 1]` reads, at `(p, q, 0)`, the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- An `[a, b, 1]` array broadcast to `[a, b, c]` reads, at `(p, q, r)`, the operand at `(p, q, 0)`. -/
theorem broadcastTo_ab1_abc_apply {a b c : ℕ} (x : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ x h (ix3 p q r) = x (ix3 p q (0 : Fin 1)) := by
  refine broadcastTo_apply x h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-! ## A sum along the last axis -/

/-- On the extended reals the sum of an `[a, b, c]` array over its last axis is, at `(p, q)`, `∑ r, x (p, q, r)`. -/
theorem laneSum_abc_apply {a b c : ℕ} {φ : FTy} (x : FVec Ideal ⟨3, ![a, b, c]⟩ φ) (acc : BitVec φ.bits)
    (h : (⟨3, ![a, b, c]⟩ : Shape).Reduces [(2 : Fin 3)] ⟨2, ![a, b]⟩) (hφ : FKind.Formats φ)
    (hacc : acc = FKind.add.neutral φ hφ) (p : Fin a) (q : Fin b) :
    multiReduction .add [(2 : Fin 3)] ⟨2, ![a, b]⟩ x acc h hφ hacc (ix2 p q) = ∑ r : Fin c, x (ix3 p q r) := by
  refine (Ideal.multiReduction_add_single x acc h hφ hacc (ix2 p q)).trans ?_
  show ∑ r : Fin c, x (h.lift (ix2 p q) r) = ∑ r : Fin c, x (ix3 p q r)
  refine Finset.sum_congr rfl fun r _ => congrArg x ?_
  funext d
  apply Fin.ext
  match d with
  | ⟨0, _⟩ => rfl
  | ⟨1, _⟩ => rfl
  | ⟨2, _⟩ => rfl

/-! ## Two matrix products into a zero accumulator -/

/-- Rows against rows: both operands contracted on their second axis. -/
theorem matmul_rowsRows_apply {a k b : ℕ} (d : DotDims ⟨2, ![a, k]⟩ ⟨2, ![b, k]⟩ ⟨2, ![a, b]⟩)
    (hd : d = DotDims.transposedRhs a k b) (prec : Option ContractPrecision)
    (l : FVec Ideal ⟨2, ![a, k]⟩ .f32) (r : FVec Ideal ⟨2, ![b, k]⟩ .f32) (p : Fin a) (q : Fin b) :
    matmul d prec l r (constant ⟨2, ![a, b]⟩ .f32 0x00000000#32) (ix2 p q) = ∑ j : Fin k, l (ix2 p j) * r (ix2 q j) := by
  subst hd
  refine (Ideal.matmul_constant_zero_apply (DotDims.transposedRhs a k b) prec l r (ix2 p q)).trans ?_
  rw [← Equiv.sum_comp (contrEquiv1 (DotDims.transposedRhs a k b) k rfl rfl).symm]
  refine Finset.sum_congr rfl fun j _ => ?_
  have el : (DotDims.transposedRhs a k b).lhsIdx (ix2 p q) ((contrEquiv1 (DotDims.transposedRhs a k b) k rfl rfl).symm j) = ix2 p j := by
    funext ax
    apply Fin.ext
    match ax with
    | ⟨0, _⟩ => simp [DotDims.lhsIdx, DotDims.transposedRhs]; rfl
    | ⟨1, _⟩ =>
      exact ((DotDims.transposedRhs a k b).lhsIdx_val_of_single (cl := 1) rfl _ _).trans
        (contrEquiv1_symm_val _ k rfl rfl j)
  have er : (DotDims.transposedRhs a k b).rhsIdx (ix2 p q) ((contrEquiv1 (DotDims.transposedRhs a k b) k rfl rfl).symm j) = ix2 q j := by
    funext ax
    apply Fin.ext
    match ax with
    | ⟨0, _⟩ => simp [DotDims.rhsIdx, DotDims.transposedRhs]; rfl
    | ⟨1, _⟩ =>
      exact ((DotDims.transposedRhs a k b).rhsIdx_val_of_single (cr := 1) rfl _ _).trans
        (contrEquiv1_symm_val _ k rfl rfl j)
  rw [el, er]

/-- Rows against columns: the left operand contracted on its second axis, the right on its first. -/
theorem matmul_rowsCols_apply {a k b : ℕ} (d : DotDims ⟨2, ![a, k]⟩ ⟨2, ![k, b]⟩ ⟨2, ![a, b]⟩)
    (hd : d = DotDims.plain a k b) (prec : Option ContractPrecision)
    (l : FVec Ideal ⟨2, ![a, k]⟩ .f32) (r : FVec Ideal ⟨2, ![k, b]⟩ .f32) (p : Fin a) (q : Fin b) :
    matmul d prec l r (constant ⟨2, ![a, b]⟩ .f32 0x00000000#32) (ix2 p q) = ∑ j : Fin k, l (ix2 p j) * r (ix2 j q) := by
  subst hd
  refine (Ideal.matmul_constant_zero_apply (DotDims.plain a k b) prec l r (ix2 p q)).trans ?_
  rw [← Equiv.sum_comp (contrEquiv1 (DotDims.plain a k b) k rfl rfl).symm]
  refine Finset.sum_congr rfl fun j _ => ?_
  have el : (DotDims.plain a k b).lhsIdx (ix2 p q) ((contrEquiv1 (DotDims.plain a k b) k rfl rfl).symm j) = ix2 p j := by
    funext ax
    apply Fin.ext
    match ax with
    | ⟨0, _⟩ => simp [DotDims.lhsIdx, DotDims.plain]; rfl
    | ⟨1, _⟩ =>
      exact ((DotDims.plain a k b).lhsIdx_val_of_single (cl := 1) rfl _ _).trans
        (contrEquiv1_symm_val _ k rfl rfl j)
  have er : (DotDims.plain a k b).rhsIdx (ix2 p q) ((contrEquiv1 (DotDims.plain a k b) k rfl rfl).symm j) = ix2 j q := by
    funext ax
    apply Fin.ext
    match ax with
    | ⟨0, _⟩ =>
      exact ((DotDims.plain a k b).rhsIdx_val_of_single (cr := 0) rfl _ _).trans
        (contrEquiv1_symm_val _ k rfl rfl j)
    | ⟨1, _⟩ => simp [DotDims.rhsIdx, DotDims.plain]; rfl
  rw [el, er]

end Cert.RowForms

end
-- ==== Proof.KernelBody.lean ====
/-
  What the kernel's body stores, read at one entry of its block.

  The body holds a block of 2 samples. At `(p, c, r)` — sample `p` of the block, channel `c`, position `r` — the value it
  stores is the row result `rowOut` of sample `p`'s rows at channel `c`: the spread along the positions forgets `r`, the
  trailing unit axis added before it is a relabelling, the bias rows are read at their one row, both matrix products
  are sums over their contracted axis (the weights in their own layout, contracted on their second axis), and the
  row sums are sums over the positions.
-/
import proofs.«106409_g2000504638825381_pallasbulk_1244_6_alg».proof.Proof.Gen.KernelIdeal.Skeleton
import proofs.«106409_g2000504638825381_pallasbulk_1244_6_alg».proof.Proof.Spec
import proofs.«106409_g2000504638825381_pallasbulk_1244_6_alg».proof.Proof.LibRowForms

noncomputable section

namespace Cert.KernelIdeal.Body

open Cert.KernelIdeal Cert.KernelIdeal.Gen Idealize.ShloMosaic Idealize.ShloMosaic.ValueIdx
open Cert.RowForms Cert.PoolDense

/-- The stored value at `(p, c, r)` is the row result of sample `p` of the block at channel `c`. -/
theorem payload_apply (x0 : Vec Ideal S2x512x1024 .f32) (x1 : Vec Ideal S32x512 .f32) (x2 : Vec Ideal S1x32 .f32)
    (x3 : Vec Ideal S512x32 .f32) (x4 : Vec Ideal S1x512 .f32) (p : Fin 2) (c : Fin 512) (r : Fin 1024) :
    k0_pay1 (F := Ideal) x0 x1 x2 x3 x4 (ix3 p c r) = rowOut (fun j s => x0 (ix3 p j s)) x1 x2 x3 x4 c := by
  unfold k0_pay1
  dsimp only
  -- the spread along the positions, and the trailing unit axis
  refine (broadcastTo_ab1_abc_apply _ _ p c r).trans ?_
  refine (congrFun (shapeCast_self _ _) _).trans ?_
  refine (shapeCast_ab_ab1_apply _ _ p c 0).trans ?_
  unfold rowOut
  -- second dense layer: product plus bias row
  refine congrArg₂ (· + ·) ?_ ?_
  · refine (matmul_rowsRows_apply _ rfl none _ x3 p c).trans ?_
    refine Finset.sum_congr rfl fun k _ => congrArg (· * x3 (ix2 c k)) ?_
    unfold hiddenUnit
    -- positive part of (product plus bias row)
    refine congrArg₂ max ?_ rfl
    refine congrArg₂ (· + ·) ?_ ?_
    · refine (matmul_rowsRows_apply _ rfl none _ x1 p k).trans ?_
      refine Finset.sum_congr rfl fun j _ => congrArg (· * x1 (ix2 k j)) ?_
      unfold chanMean
      -- the average: row sum times the factor
      refine congrArg₂ (· * ·) ?_ rfl
      refine (congrArg (fun v => multiReduction .add [2] S2x512 v 0x00000000#32 reduces_S2x512x1024_S2x512 (.inl rfl) rfl (ix2 p j))
        (shapeCast_self x0 _)).trans ?_
      exact laneSum_abc_apply x0 _ _ _ _ p j
    · refine (broadcastTo_1b_ab_apply _ _ p k).trans ?_
      exact congrFun (shapeCast_self x2 _) _
  · refine (broadcastTo_1b_ab_apply _ _ p c).trans ?_
    exact congrFun (shapeCast_self x4 _) _

end Cert.KernelIdeal.Body

end
-- ==== Proof.KernelValue.lean ====
/-
  The kernel's result array, whole.

  The grid has 16 points; point `t` reads samples `2t` and `2t + 1` of the input and every weight and bias whole, and
  writes samples `2t` and `2t + 1` of the output. So what point `t` writes back is block `t` of `allRows` of the arrays as
  the region finds them (`flushed_eq`): sample `p` of the block is sample `2t + p` of the array, and the row result of a
  sample depends on that sample's rows alone. The 16 blocks cover the 32 samples (sample `n` lies in block `n / 2`),
  so the region leaves `allRows` (`final`). Around the region the program only relabels axes: the run's result is
  `result` of the five arguments (`run`), and the arguments end as they began.
-/
import proofs.«106409_g2000504638825381_pallasbulk_1244_6_alg».proof.Proof.Gen.KernelIdeal.Frame
import proofs.«106409_g2000504638825381_pallasbulk_1244_6_alg».proof.Proof.KernelBody
import Idealize.ShloMosaic.Lib.Pipeline.Value
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Cert.PoolDense
open Idealize.ShloMosaic.Pipeline (Dat)

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros2 : (![0, 0] : Fin 2 → Nat) = fun _ => 0 := funext fun a => by fin_cases a <;> rfl

/-- What the region leaves in its output array: every sample's row result, of the arrays as the region finds them. -/
abbrev regionOut (c : Dev nD) : S32x512x1024.Idx → EReal :=
  allRows (V m c main_v0) (V m c main_arg1) (V m c main_v1) (V m c main_arg3) (V m c main_v2)

/-- The printed index maps over the 16 points: the input's block moves with the output's along the samples, every
    other block index is zero. -/
theorem idx_facts : ∀ t : Fin cfg0.N,
    win0_0.index t (0 : Fin 3) = win0_5.index t (0 : Fin 3) ∧ win0_0.index t (1 : Fin 3) = 0 ∧ win0_0.index t (2 : Fin 3) = 0
    ∧ win0_5.index t (1 : Fin 3) = 0 ∧ win0_5.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) ≤ 15 :=
  (by decide +kernel : ∀ t : Fin grid0.N, _)

/-- Every pair of samples is some point's block. -/
theorem idx_onto : ∀ q : Fin 16, ∃ t : Fin cfg0.N, win0_5.index t = ![q.val, 0, 0] :=
  (by decide +kernel : ∀ q : Fin 16, ∃ t : Fin grid0.N, win0_5.index t = ![q.val, 0, 0])

/-- One stored entry against the whole array's: if the block's sample `p` holds the array's sample `n` and the weights
    and biases are the arrays', the stored value at `(p, q, r)` is `allRows` at `(n, q, r')`. -/
theorem point_eq (X : S32x512x1024.Idx → EReal) (W1 : S32x512.Idx → EReal) (B1 : S1x32.Idx → EReal)
    (W2 : S512x32.Idx → EReal) (B2 : S1x512.Idx → EReal)
    (x0 : Vec Ideal S2x512x1024 .f32) (x1 : Vec Ideal S32x512 .f32) (x2 : Vec Ideal S1x32 .f32)
    (x3 : Vec Ideal S512x32 .f32) (x4 : Vec Ideal S1x512 .f32)
    (n : Fin 32) (p : Fin 2) (q : Fin 512) (r r' : Fin 1024)
    (h0 : ∀ (j : Fin 512) (s : Fin 1024), x0 (ix3 p j s) = X (ix3 n j s))
    (h1 : x1 = W1) (h2 : x2 = B1) (h3 : x3 = W2) (h4 : x4 = B2) :
    k0_pay1 (F := Ideal) x0 x1 x2 x3 x4 (ix3 p q r) = allRows X W1 B1 W2 B2 (ix3 n q r') := by
  subst h1 h2 h3 h4
  refine (Body.payload_apply x0 x1 x2 x3 x4 p q r).trans ?_
  show rowOut (fun j s => x0 (ix3 p j s)) x1 x2 x3 x4 q = rowOut (fun j s => X (ix3 n j s)) x1 x2 x3 x4 q
  exact congrArg (fun xr => rowOut xr x1 x2 x3 x4 q) (funext fun j => funext fun s => h0 j s)

/-- What point `t` writes back is block `t` of `regionOut`. -/
theorem flushed_eq (c : Dev nD) (t : Fin cfg0.N) :
    (dats m 0 c).flushed 5 t = ((cfg0.win 5).blk t).view.read (Elt Ideal) (regionOut m c) := by
  show (cfg0.win 5).cut (grid0.coords t) ((dats m 0 c).after 5 t) = _
  rw [after0_5]
  unfold out0_5
  rw [View.canon_unit_zero zeros3]
  simp only [View.ld_unit_zero (S := S2x512x1024) zeros3, View.ld_unit_zero (S := S32x512) zeros2,
    View.ld_unit_zero (S := S1x32) zeros2, View.ld_unit_zero (S := S512x32) zeros2, View.ld_unit_zero (S := S1x512) zeros2]
  obtain ⟨e0, e1, e2, e3, e4, e5, e6, e7, e8, e9, e10, e11, e12, e13⟩ := idx_facts t
  refine funext fun (y : S2x512x1024.Idx) => ?_
  obtain ⟨p, q, r, rfl⟩ : ∃ (p : Fin 2) (q : Fin 512) (r : Fin 1024), y = ix3 p q r := ⟨y 0, y 1, y 2, eq_ix3 y⟩
  have hp : p.val < 2 := p.isLt
  show k0_pay1 (F := Ideal) (iblk m c 0 t) (iblk m c 1 t) (iblk m c 2 t) (iblk m c 3 t) (iblk m c 4 t) (ix3 p q r)
    = regionOut m c (((cfg0.win 5).blk t).view.emb (ix3 p q r))
  refine (point_eq (V m c main_v0) (V m c main_arg1) (V m c main_v1) (V m c main_arg3) (V m c main_v2)
    (iblk m c 0 t) (iblk m c 1 t) (iblk m c 2 t) (iblk m c 3 t) (iblk m c 4 t)
    ⟨win0_5.index t (0 : Fin 3) * 2 + p.val, by omega⟩ p q r r ?_ ?_ ?_ ?_ ?_).trans ?_
  · intro j s
    show V m c main_v0 (((cfg0.win 0).blk t).view.emb (ix3 p j s)) = _
    refine congrArg (V m c main_v0) ?_
    funext a; apply Fin.ext
    match a with
    | ⟨0, _⟩ => show win0_0.index t (0 : Fin 3) * 2 + 1 * p.val = win0_5.index t (0 : Fin 3) * 2 + p.val; omega
    | ⟨1, _⟩ => show win0_0.index t (1 : Fin 3) * 512 + 1 * j.val = j.val; omega
    | ⟨2, _⟩ => show win0_0.index t (2 : Fin 3) * 1024 + 1 * s.val = s.val; omega
  · refine funext fun (j : S32x512.Idx) => ?_
    show V m c main_arg1 (((cfg0.win 1).blk t).view.emb j) = V m c main_arg1 j
    refine congrArg (V m c main_arg1) ?_
    funext a; apply Fin.ext
    match a with
    | ⟨0, _⟩ => show win0_1.index t (0 : Fin 2) * 32 + 1 * (j 0).val = (j 0).val; omega
    | ⟨1, _⟩ => show win0_1.index t (1 : Fin 2) * 512 + 1 * (j 1).val = (j 1).val; omega
  · refine funext fun (j : S1x32.Idx) => ?_
    show V m c main_v1 (((cfg0.win 2).blk t).view.emb j) = V m c main_v1 j
    refine congrArg (V m c main_v1) ?_
    funext a; apply Fin.ext
    match a with
    | ⟨0, _⟩ => show win0_2.index t (0 : Fin 2) * 1 + 1 * (j 0).val = (j 0).val; omega
    | ⟨1, _⟩ => show win0_2.index t (1 : Fin 2) * 32 + 1 * (j 1).val = (j 1).val; omega
  · refine funext fun (j : S512x32.Idx) => ?_
    show V m c main_arg3 (((cfg0.win 3).blk t).view.emb j) = V m c main_arg3 j
    refine congrArg (V m c main_arg3) ?_
    funext a; apply Fin.ext
    match a with
    | ⟨0, _⟩ => show win0_3.index t (0 : Fin 2) * 512 + 1 * (j 0).val = (j 0).val; omega
    | ⟨1, _⟩ => show win0_3.index t (1 : Fin 2) * 32 + 1 * (j 1).val = (j 1).val; omega
  · refine funext fun (j : S1x512.Idx) => ?_
    show V m c main_v2 (((cfg0.win 4).blk t).view.emb j) = V m c main_v2 j
    refine congrArg (V m c main_v2) ?_
    funext a; apply Fin.ext
    match a with
    | ⟨0, _⟩ => show win0_4.index t (0 : Fin 2) * 1 + 1 * (j 0).val = (j 0).val; omega
    | ⟨1, _⟩ => show win0_4.index t (1 : Fin 2) * 512 + 1 * (j 1).val = (j 1).val; omega
  · refine congrArg (regionOut m c) ?_
    funext a; apply Fin.ext
    match a with
    | ⟨0, _⟩ => show win0_5.index t (0 : Fin 3) * 2 + p.val = win0_5.index t (0 : Fin 3) * 2 + 1 * p.val; omega
    | ⟨1, _⟩ => show q.val = win0_5.index t (1 : Fin 3) * 512 + 1 * q.val; omega
    | ⟨2, _⟩ => show r.val = win0_5.index t (2 : Fin 3) * 1024 + 1 * r.val; omega

/-- An index of the array lies in point `t`'s block iff each coordinate lies in the block's range on its axis. -/
theorem mem_blk (t : Fin cfg0.N) (i : S32x512x1024.Idx) :
    i ∈ ((cfg0.win 5).blk t).view.set ↔ ∀ a : Fin 3, win0_5.index t a * S2x512x1024.size a ≤ (i a).val
      ∧ (i a).val < win0_5.index t a * S2x512x1024.size a + S2x512x1024.size a := by
  show i ∈ ((View.whole main_v3).slice (win0_5.rect t)).set ↔ _
  rw [View.set_slice_whole, Rect.mem_set_unit]
  exact Iff.rfl

/-- Every index lies in some point's block: sample `n` in block `n / 2`. -/
theorem cover (i : S32x512x1024.Idx) :
    ∃ t : Fin cfg0.N, (cfg0.win 5).flush t = true ∧ i ∈ ((cfg0.win 5).blk t).view.set := by
  have hi0 : (i 0).val < 32 := (i 0).isLt
  have hi1 : (i 1).val < 512 := (i 1).isLt
  have hi2 : (i 2).val < 1024 := (i 2).isLt
  obtain ⟨t, ht⟩ := idx_onto ⟨(i 0).val / 2, by omega⟩
  have q0 : win0_5.index t (0 : Fin 3) = (i 0).val / 2 := congrFun ht 0
  have q1 : win0_5.index t (1 : Fin 3) = 0 := congrFun ht 1
  have q2 : win0_5.index t (2 : Fin 3) = 0 := congrFun ht 2
  refine ⟨t, flush0_5 t, ?_⟩
  rw [mem_blk]
  intro a
  match a with
  | ⟨0, _⟩ =>
    show win0_5.index t (0 : Fin 3) * 2 ≤ (i 0).val ∧ (i 0).val < win0_5.index t (0 : Fin 3) * 2 + 2
    omega
  | ⟨1, _⟩ =>
    show win0_5.index t (1 : Fin 3) * 512 ≤ (i 1).val ∧ (i 1).val < win0_5.index t (1 : Fin 3) * 512 + 512
    omega
  | ⟨2, _⟩ =>
    show win0_5.index t (2 : Fin 3) * 1024 ≤ (i 2).val ∧ (i 2).val < win0_5.index t (2 : Fin 3) * 1024 + 1024
    omega

/-- The region's output array after the run. -/
theorem final (c : Dev nD) : (dats m 0 c).arrAt 5 cfg0.N = regionOut m c :=
  (dats m 0 c).arrAt_eq_of_cover 5 (regionOut m c) (fun t _ => flushed_eq m c t) cover

/-! ## Around the region: the arguments viewed, the result viewed back -/

/-- The input as the region finds it: the argument with its two position axes read as one. -/
theorem V_x (c : Dev nD) : (V m c main_v0 : S32x512x1024.Idx → EReal)
    = shapeCast S32x512x1024 (m ((c : Thread nD τ).loc main_arg0)) casts_x := by
  show StableHlo.after hostOps0 (fun b => m (c, b)) (Proc.devRef .tc main_v0) = _
  after_results
  rfl

/-- The first bias as the region finds it: the argument as a one-row matrix. -/
theorem V_b1 (c : Dev nD) : (V m c main_v1 : S1x32.Idx → EReal)
    = shapeCast S1x32 (m ((c : Thread nD τ).loc main_arg2)) casts_b1 := by
  show StableHlo.after hostOps0 (fun b => m (c, b)) (Proc.devRef .tc main_v1) = _
  after_results
  rfl

/-- The second bias as the region finds it: the argument as a one-row matrix. -/
theorem V_b2 (c : Dev nD) : (V m c main_v2 : S1x512.Idx → EReal)
    = shapeCast S1x512 (m ((c : Thread nD τ).loc main_arg4)) casts_b2 := by
  show StableHlo.after hostOps0 (fun b => m (c, b)) (Proc.devRef .tc main_v2) = _
  after_results
  rfl

/-- The program's result buffer after the line that follows the region: `result` of the five arguments. -/
theorem tail_eq (c : Dev nD) :
    Pipeline.afterTail₀ cfgs (dats m) 0 (V0 m) [hostOps1] c main_v4
      = result (m ((c : Thread nD τ).loc main_arg0)) (m ((c : Thread nD τ).loc main_arg1)) (m ((c : Thread nD τ).loc main_arg2))
          (m ((c : Thread nD τ).loc main_arg3)) (m ((c : Thread nD τ).loc main_arg4)) := by
  unfold Pipeline.afterTail₀
  show StableHlo.after hostOps1 _ (Proc.devRef .tc main_v4) = _
  after_results
  have e : Pipeline.withArrays spec0 c (V0 m c) (fun w => (dats m 0 c).arrAt w cfg0.N) (Proc.devRef .tc main_v3)
      = regionOut m c :=
    (Pipeline.withArrays_arr spec0 launch0.win.arr_inj c _ _ 5).trans (final m c)
  rw [e]
  unfold result
  rw [← V_x m c, ← V_b1 m c, ← V_b2 m c, ← V_main_arg1 m c, ← V_main_arg3 m c]
  rfl

/-- Every weakly fair execution terminates with the result buffer at `result` of the arguments and the arguments as
    they began. -/
theorem run : θ_run defs (onTc (τ := τ) (main (F := Ideal))) ⟨m, fun _ => 0, ρ⟩ (fun r => ∀ c : Dev nD,
      r.2.mem ((c.tc : Thread nD τ).loc main_v4)
        = result (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.KernelIdeal.Whole

end
-- ==== Proof.RefBody.lean ====
/-
  What the reference's body stores, read at one entry of its block.

  The body holds a block of 4 samples, and is handed the two weight matrices transposed: `x1` is 512 by 32 with
  `x1 (j, k) = w1 (k, j)`, and `x3` is 32 by 512 with `x3 (k, c) = w2 (c, k)`. Its two matrix products contract the left
  operand's second axis against the right operand's first, so entry by entry they are the same sums over the same
  index as products against `w1` and `w2` in their own layout. At `(p, c, r)` the stored value is therefore the row
  result `rowOut` of sample `p`'s rows at channel `c`, with `w1` and `w2`.
-/
import proofs.«106409_g2000504638825381_pallasbulk_1244_6_alg».proof.Proof.Gen.ReferenceIdeal.Skeleton
import proofs.«106409_g2000504638825381_pallasbulk_1244_6_alg».proof.Proof.Spec
import proofs.«106409_g2000504638825381_pallasbulk_1244_6_alg».proof.Proof.LibRowForms

noncomputable section

namespace Cert.ReferenceIdeal.Body

open Cert.ReferenceIdeal Cert.ReferenceIdeal.Gen Idealize.ShloMosaic Idealize.ShloMosaic.ValueIdx
open Cert.RowForms Cert.PoolDense

/-- The stored value at `(p, c, r)` is the row result of sample `p` of the block at channel `c`, for the weights
    whose transposes the body is handed. -/
theorem payload_apply (x0 : Vec Ideal S4x512x1024 .f32) (x1 : Vec Ideal S512x32 .f32) (x2 : Vec Ideal S1x32 .f32)
    (x3 : Vec Ideal S32x512 .f32) (x4 : Vec Ideal S1x512 .f32)
    (w1 : S32x512.Idx → EReal) (w2 : S512x32.Idx → EReal)
    (h1 : ∀ (j : Fin 512) (k : Fin 32), x1 (ix2 j k) = w1 (ix2 k j))
    (h3 : ∀ (k : Fin 32) (c : Fin 512), x3 (ix2 k c) = w2 (ix2 c k))
    (p : Fin 4) (c : Fin 512) (r : Fin 1024) :
    k0_pay1 (F := Ideal) x0 x1 x2 x3 x4 (ix3 p c r) = rowOut (fun j s => x0 (ix3 p j s)) w1 x2 w2 x4 c := by
  unfold k0_pay1
  dsimp only
  -- the spread along the positions, and the trailing unit axis
  refine (broadcastTo_ab1_abc_apply _ _ p c r).trans ?_
  refine (congrFun (shapeCast_self _ _) _).trans ?_
  refine (shapeCast_ab_ab1_apply _ _ p c 0).trans ?_
  unfold rowOut
  -- second dense layer: product plus bias row
  refine congrArg₂ (· + ·) ?_ ?_
  · refine (matmul_rowsCols_apply _ rfl none _ _ p c).trans ?_
    refine Finset.sum_congr rfl fun k _ => congrArg₂ (· * ·) ?_ ?_
    · unfold hiddenUnit
      -- positive part of (product plus bias row)
      refine congrArg₂ max ?_ rfl
      refine congrArg₂ (· + ·) ?_ ?_
      · refine (matmul_rowsCols_apply _ rfl none _ _ p k).trans ?_
        refine Finset.sum_congr rfl fun j _ => congrArg₂ (· * ·) ?_ ?_
        · unfold chanMean
          -- the average: row sum times the factor
          refine congrArg₂ (· * ·) ?_ rfl
          refine (congrArg (fun v => multiReduction .add [2] S4x512 v 0x00000000#32 reduces_S4x512x1024_S4x512 (.inl rfl) rfl (ix2 p j))
            (shapeCast_self x0 _)).trans ?_
          exact laneSum_abc_apply x0 _ _ _ _ p j
        · exact (congrFun (shapeCast_self x1 _) _).trans (h1 j k)
      · refine (broadcastTo_1b_ab_apply _ _ p k).trans ?_
        exact congrFun (shapeCast_self x2 _) _
    · exact (congrFun (shapeCast_self x3 _) _).trans (h3 k c)
  · refine (broadcastTo_1b_ab_apply _ _ p c).trans ?_
    exact congrFun (shapeCast_self x4 _) _

end Cert.ReferenceIdeal.Body

end
-- ==== Proof.RefValue.lean ====
/-
  The reference's result array, whole.

  Before its region the reference transposes the two weight matrices, views each bias as a one-row matrix and views
  the input as 32 by 512 by 1024. The grid has 8 points; point `t` reads samples `4t … 4t + 3` of the input and every
  transposed weight and bias whole, and writes samples `4t … 4t + 3` of the output. What point `t` writes back is block
  `t` of `allRows` of the input as the region finds it and of the weights as the ARGUMENTS hold them (`flushed_eq`): a
  transposed matrix read at `(j, k)` is the matrix at `(k, j)`. The 8 blocks cover the 32 samples (sample `n` lies in
  block `n / 4`), so the region leaves `allRows` (`final`); with the relabellings around the region the run's result
  is `result` of the five arguments (`run`), and the arguments end as they began.
-/
import proofs.«106409_g2000504638825381_pallasbulk_1244_6_alg».proof.Proof.Gen.ReferenceIdeal.Frame
import proofs.«106409_g2000504638825381_pallasbulk_1244_6_alg».proof.Proof.RefBody
import Idealize.ShloMosaic.Lib.Pipeline.Value
import Idealize.ShloMosaic.Lib.ValueLayout
import Idealize.ShloMosaic.Lib.StableHlo.Run

set_option maxRecDepth 16384

noncomputable section

namespace Cert.ReferenceIdeal.Whole

open Cert.ReferenceIdeal Cert.ReferenceIdeal.Gen Idealize.ShloMosaic Idealize.ShloMosaic.TcCoe Idealize.SL.Sem
open Idealize.ShloMosaic.ValueIdx Cert.PoolDense
open Idealize.ShloMosaic.Pipeline (Dat)

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros2 : (![0, 0] : Fin 2 → Nat) = fun _ => 0 := funext fun a => by fin_cases a <;> rfl

/-- What the region leaves in its output array: every sample's row result, of the input and biases as the region
    finds them and of the weights as the arguments hold them. -/
abbrev regionOut (c : Dev nD) : S32x512x1024.Idx → EReal :=
  allRows (V m c main_v4) (V m c main_arg1) (V m c main_v2) (V m c main_arg3) (V m c main_v3)

/-! ## The arrays as the region finds them -/

/-- The input: the argument with its two position axes read as one. -/
theorem V_x (c : Dev nD) : (V m c main_v4 : S32x512x1024.Idx → EReal)
    = shapeCast S32x512x1024 (m ((c : Thread nD τ).loc main_arg0)) casts_x := by
  show StableHlo.after hostOps0 (fun b => m (c, b)) (Proc.devRef .tc main_v4) = _
  after_results
  rfl

/-- The first bias: the argument as a one-row matrix. -/
theorem V_b1 (c : Dev nD) : (V m c main_v2 : S1x32.Idx → EReal)
    = shapeCast S1x32 (m ((c : Thread nD τ).loc main_arg2)) casts_b1 := by
  show StableHlo.after hostOps0 (fun b => m (c, b)) (Proc.devRef .tc main_v2) = _
  after_results
  rfl

/-- The second bias: the argument as a one-row matrix. -/
theorem V_b2 (c : Dev nD) : (V m c main_v3 : S1x512.Idx → EReal)
    = shapeCast S1x512 (m ((c : Thread nD τ).loc main_arg4)) casts_b2 := by
  show StableHlo.after hostOps0 (fun b => m (c, b)) (Proc.devRef .tc main_v3) = _
  after_results
  rfl

/-- The first weight matrix, transposed. -/
theorem V_w1t (c : Dev nD) : (V m c main_v0 : S512x32.Idx → EReal)
    = transpose S512x32 [1, 0] (m ((c : Thread nD τ).loc main_arg1)) transposes_S32x512_S512x32_1_0 := by
  show StableHlo.after hostOps0 (fun b => m (c, b)) (Proc.devRef .tc main_v0) = _
  after_results

/-- The second weight matrix, transposed. -/
theorem V_w2t (c : Dev nD) : (V m c main_v1 : S32x512.Idx → EReal)
    = transpose S32x512 [1, 0] (m ((c : Thread nD τ).loc main_arg3)) transposes_S512x32_S32x512_1_0 := by
  show StableHlo.after hostOps0 (fun b => m (c, b)) (Proc.devRef .tc main_v1) = _
  after_results

/-! ## The region -/

/-- The printed index maps over the 8 points: the input's block moves with the output's along the samples, every
    other block index is zero. -/
theorem idx_facts : ∀ t : Fin cfg0.N,
    win0_0.index t (0 : Fin 3) = win0_5.index t (0 : Fin 3) ∧ win0_0.index t (1 : Fin 3) = 0 ∧ win0_0.index t (2 : Fin 3) = 0
    ∧ win0_5.index t (1 : Fin 3) = 0 ∧ win0_5.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) ≤ 7 :=
  (by decide +kernel : ∀ t : Fin grid0.N, _)

/-- Every four samples are some point's block. -/
theorem idx_onto : ∀ q : Fin 8, ∃ t : Fin cfg0.N, win0_5.index t = ![q.val, 0, 0] :=
  (by decide +kernel : ∀ q : Fin 8, ∃ t : Fin grid0.N, win0_5.index t = ![q.val, 0, 0])

/-- One stored entry against the whole array's: if the block's sample `p` holds the array's sample `n`, the two
    weight blocks are the transposes of `W1` and `W2` and the bias blocks are the arrays', the stored value at
    `(p, q, r)` is `allRows` at `(n, q, r')`. -/
theorem point_eq (X : S32x512x1024.Idx → EReal) (W1 : S32x512.Idx → EReal) (B1 : S1x32.Idx → EReal)
    (W2 : S512x32.Idx → EReal) (B2 : S1x512.Idx → EReal)
    (x0 : Vec Ideal S4x512x1024 .f32) (x1 : Vec Ideal S512x32 .f32) (x2 : Vec Ideal S1x32 .f32)
    (x3 : Vec Ideal S32x512 .f32) (x4 : Vec Ideal S1x512 .f32)
    (n : Fin 32) (p : Fin 4) (q : Fin 512) (r r' : Fin 1024)
    (h0 : ∀ (j : Fin 512) (s : Fin 1024), x0 (ix3 p j s) = X (ix3 n j s))
    (h1 : ∀ (j : Fin 512) (k : Fin 32), x1 (ix2 j k) = W1 (ix2 k j)) (h2 : x2 = B1)
    (h3 : ∀ (k : Fin 32) (c : Fin 512), x3 (ix2 k c) = W2 (ix2 c k)) (h4 : x4 = B2) :
    k0_pay1 (F := Ideal) x0 x1 x2 x3 x4 (ix3 p q r) = allRows X W1 B1 W2 B2 (ix3 n q r') := by
  subst h2 h4
  refine (Body.payload_apply x0 x1 x2 x3 x4 W1 W2 h1 h3 p q r).trans ?_
  show rowOut (fun j s => x0 (ix3 p j s)) W1 x2 W2 x4 q = rowOut (fun j s => X (ix3 n j s)) W1 x2 W2 x4 q
  exact congrArg (fun xr => rowOut xr W1 x2 W2 x4 q) (funext fun j => funext fun s => h0 j s)

/-- What point `t` writes back is block `t` of `regionOut`. -/
theorem flushed_eq (c : Dev nD) (t : Fin cfg0.N) :
    (dats m 0 c).flushed 5 t = ((cfg0.win 5).blk t).view.read (Elt Ideal) (regionOut m c) := by
  show (cfg0.win 5).cut (grid0.coords t) ((dats m 0 c).after 5 t) = _
  rw [after0_5]
  unfold out0_5
  rw [View.canon_unit_zero zeros3]
  simp only [View.ld_unit_zero (S := S4x512x1024) zeros3, View.ld_unit_zero (S := S512x32) zeros2,
    View.ld_unit_zero (S := S1x32) zeros2, View.ld_unit_zero (S := S32x512) zeros2, View.ld_unit_zero (S := S1x512) zeros2]
  obtain ⟨e0, e1, e2, e3, e4, e5, e6, e7, e8, e9, e10, e11, e12, e13⟩ := idx_facts t
  refine funext fun (y : S4x512x1024.Idx) => ?_
  obtain ⟨p, q, r, rfl⟩ : ∃ (p : Fin 4) (q : Fin 512) (r : Fin 1024), y = ix3 p q r := ⟨y 0, y 1, y 2, eq_ix3 y⟩
  have hp : p.val < 4 := p.isLt
  show k0_pay1 (F := Ideal) (iblk m c 0 t) (iblk m c 1 t) (iblk m c 2 t) (iblk m c 3 t) (iblk m c 4 t) (ix3 p q r)
    = regionOut m c (((cfg0.win 5).blk t).view.emb (ix3 p q r))
  refine (point_eq (V m c main_v4) (V m c main_arg1) (V m c main_v2) (V m c main_arg3) (V m c main_v3)
    (iblk m c 0 t) (iblk m c 1 t) (iblk m c 2 t) (iblk m c 3 t) (iblk m c 4 t)
    ⟨win0_5.index t (0 : Fin 3) * 4 + p.val, by omega⟩ p q r r ?_ ?_ ?_ ?_ ?_).trans ?_
  · intro j s
    show V m c main_v4 (((cfg0.win 0).blk t).view.emb (ix3 p j s)) = _
    refine congrArg (V m c main_v4) ?_
    funext a; apply Fin.ext
    match a with
    | ⟨0, _⟩ => show win0_0.index t (0 : Fin 3) * 4 + 1 * p.val = win0_5.index t (0 : Fin 3) * 4 + p.val; omega
    | ⟨1, _⟩ => show win0_0.index t (1 : Fin 3) * 512 + 1 * j.val = j.val; omega
    | ⟨2, _⟩ => show win0_0.index t (2 : Fin 3) * 1024 + 1 * s.val = s.val; omega
  · intro j k
    show V m c main_v0 (((cfg0.win 1).blk t).view.emb (ix2 j k)) = V m c main_arg1 (ix2 k j)
    have hidx : ((cfg0.win 1).blk t).view.emb (ix2 j k) = ix2 j k := by
      funext a; apply Fin.ext
      match a with
      | ⟨0, _⟩ => show win0_1.index t (0 : Fin 2) * 512 + 1 * j.val = j.val; omega
      | ⟨1, _⟩ => show win0_1.index t (1 : Fin 2) * 32 + 1 * k.val = k.val; omega
    rw [hidx, V_w1t m c, V_main_arg1 m c]
    exact transpose_ix2_apply _ _ j k
  · refine funext fun (j : S1x32.Idx) => ?_
    show V m c main_v2 (((cfg0.win 2).blk t).view.emb j) = V m c main_v2 j
    refine congrArg (V m c main_v2) ?_
    funext a; apply Fin.ext
    match a with
    | ⟨0, _⟩ => show win0_2.index t (0 : Fin 2) * 1 + 1 * (j 0).val = (j 0).val; omega
    | ⟨1, _⟩ => show win0_2.index t (1 : Fin 2) * 32 + 1 * (j 1).val = (j 1).val; omega
  · intro k q'
    show V m c main_v1 (((cfg0.win 3).blk t).view.emb (ix2 k q')) = V m c main_arg3 (ix2 q' k)
    have hidx : ((cfg0.win 3).blk t).view.emb (ix2 k q') = ix2 k q' := by
      funext a; apply Fin.ext
      match a with
      | ⟨0, _⟩ => show win0_3.index t (0 : Fin 2) * 32 + 1 * k.val = k.val; omega
      | ⟨1, _⟩ => show win0_3.index t (1 : Fin 2) * 512 + 1 * q'.val = q'.val; omega
    rw [hidx, V_w2t m c, V_main_arg3 m c]
    exact transpose_ix2_apply _ _ k q'
  · refine funext fun (j : S1x512.Idx) => ?_
    show V m c main_v3 (((cfg0.win 4).blk t).view.emb j) = V m c main_v3 j
    refine congrArg (V m c main_v3) ?_
    funext a; apply Fin.ext
    match a with
    | ⟨0, _⟩ => show win0_4.index t (0 : Fin 2) * 1 + 1 * (j 0).val = (j 0).val; omega
    | ⟨1, _⟩ => show win0_4.index t (1 : Fin 2) * 512 + 1 * (j 1).val = (j 1).val; omega
  · refine congrArg (regionOut m c) ?_
    funext a; apply Fin.ext
    match a with
    | ⟨0, _⟩ => show win0_5.index t (0 : Fin 3) * 4 + p.val = win0_5.index t (0 : Fin 3) * 4 + 1 * p.val; omega
    | ⟨1, _⟩ => show q.val = win0_5.index t (1 : Fin 3) * 512 + 1 * q.val; omega
    | ⟨2, _⟩ => show r.val = win0_5.index t (2 : Fin 3) * 1024 + 1 * r.val; omega

/-- An index of the array lies in point `t`'s block iff each coordinate lies in the block's range on its axis. -/
theorem mem_blk (t : Fin cfg0.N) (i : S32x512x1024.Idx) :
    i ∈ ((cfg0.win 5).blk t).view.set ↔ ∀ a : Fin 3, win0_5.index t a * S4x512x1024.size a ≤ (i a).val
      ∧ (i a).val < win0_5.index t a * S4x512x1024.size a + S4x512x1024.size a := by
  show i ∈ ((View.whole main_v5).slice (win0_5.rect t)).set ↔ _
  rw [View.set_slice_whole, Rect.mem_set_unit]
  exact Iff.rfl

/-- Every index lies in some point's block: sample `n` in block `n / 4`. -/
theorem cover (i : S32x512x1024.Idx) :
    ∃ t : Fin cfg0.N, (cfg0.win 5).flush t = true ∧ i ∈ ((cfg0.win 5).blk t).view.set := by
  have hi0 : (i 0).val < 32 := (i 0).isLt
  have hi1 : (i 1).val < 512 := (i 1).isLt
  have hi2 : (i 2).val < 1024 := (i 2).isLt
  obtain ⟨t, ht⟩ := idx_onto ⟨(i 0).val / 4, by omega⟩
  have q0 : win0_5.index t (0 : Fin 3) = (i 0).val / 4 := congrFun ht 0
  have q1 : win0_5.index t (1 : Fin 3) = 0 := congrFun ht 1
  have q2 : win0_5.index t (2 : Fin 3) = 0 := congrFun ht 2
  refine ⟨t, flush0_5 t, ?_⟩
  rw [mem_blk]
  intro a
  match a with
  | ⟨0, _⟩ =>
    show win0_5.index t (0 : Fin 3) * 4 ≤ (i 0).val ∧ (i 0).val < win0_5.index t (0 : Fin 3) * 4 + 4
    omega
  | ⟨1, _⟩ =>
    show win0_5.index t (1 : Fin 3) * 512 ≤ (i 1).val ∧ (i 1).val < win0_5.index t (1 : Fin 3) * 512 + 512
    omega
  | ⟨2, _⟩ =>
    show win0_5.index t (2 : Fin 3) * 1024 ≤ (i 2).val ∧ (i 2).val < win0_5.index t (2 : Fin 3) * 1024 + 1024
    omega

/-- The region's output array after the run. -/
theorem final (c : Dev nD) : (dats m 0 c).arrAt 5 cfg0.N = regionOut m c :=
  (dats m 0 c).arrAt_eq_of_cover 5 (regionOut m c) (fun t _ => flushed_eq m c t) cover

/-! ## Around the region: the result viewed back -/

/-- The program's result buffer after the line that follows the region: `result` of the five arguments. -/
theorem tail_eq (c : Dev nD) :
    Pipeline.afterTail₀ cfgs (dats m) 0 (V0 m) [hostOps1] c main_v6
      = result (m ((c : Thread nD τ).loc main_arg0)) (m ((c : Thread nD τ).loc main_arg1)) (m ((c : Thread nD τ).loc main_arg2))
          (m ((c : Thread nD τ).loc main_arg3)) (m ((c : Thread nD τ).loc main_arg4)) := by
  unfold Pipeline.afterTail₀
  show StableHlo.after hostOps1 _ (Proc.devRef .tc main_v6) = _
  after_results
  have e : Pipeline.withArrays spec0 c (V0 m c) (fun w => (dats m 0 c).arrAt w cfg0.N) (Proc.devRef .tc main_v5)
      = regionOut m c :=
    (Pipeline.withArrays_arr spec0 launch0.win.arr_inj c _ _ 5).trans (final m c)
  rw [e]
  unfold result
  rw [← V_x m c, ← V_b1 m c, ← V_b2 m c, ← V_main_arg1 m c, ← V_main_arg3 m c]
  rfl

/-- Every weakly fair execution terminates with the result buffer at `result` of the arguments and the arguments as
    they began. -/
theorem run : θ_run defs (onTc (τ := τ) (main (F := Ideal))) ⟨m, fun _ => 0, ρ⟩ (fun r => ∀ c : Dev nD,
      r.2.mem ((c.tc : Thread nD τ).loc main_v6)
        = result (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v6 (Pipeline.mem_restRefs_of main_v6 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.ReferenceIdeal.Whole

end
-- ==== Proof.lean ====
/-
  Two programs for one function. Each averages every channel of every sample over its 1024 positions, sends the 512
  averages of a sample through a dense layer to 32 hidden units, takes the positive part, sends those through a second
  dense layer back to 512 channels, and writes each channel's value at every position of that sample.

  The kernel handles 2 samples per grid point over 16 points and contracts each weight matrix in its own layout, on its
  second axis. The reference handles 4 samples per point over 8 points, and contracts on the first axis of weight
  matrices it has transposed beforehand. Entry by entry these are the same sums over the same index, of the same
  terms, with the same two constants; a sample's result depends on that sample's rows alone, so the height of a block
  does not matter. On the extended reals both programs therefore return `PoolDense.result` of the five arguments:
  `KernelIdeal.Whole.run` and `ReferenceIdeal.Whole.run` say so of each, and the claim joins them on arguments that
  agree. No law is used that would need the inputs finite.

  The three frames are the generated ones; the reference's is its value run with the result forgotten. The idealized
  kernel is the kernel's own text read on the extended reals (no operation was rewritten), so that conjunct is trivial.
-/
import proofs.«106409_g2000504638825381_pallasbulk_1244_6_alg».proof.Defs
import proofs.«106409_g2000504638825381_pallasbulk_1244_6_alg».proof.Proof.Gen.Kernel
import proofs.«106409_g2000504638825381_pallasbulk_1244_6_alg».proof.Proof.Gen.Kernel.Skeleton
import proofs.«106409_g2000504638825381_pallasbulk_1244_6_alg».proof.Proof.Gen.Kernel.Launch
import proofs.«106409_g2000504638825381_pallasbulk_1244_6_alg».proof.Proof.Gen.Kernel.Points
import proofs.«106409_g2000504638825381_pallasbulk_1244_6_alg».proof.Proof.Gen.Kernel.Frame
import proofs.«106409_g2000504638825381_pallasbulk_1244_6_alg».proof.Proof.Gen.KernelIdeal
import proofs.«106409_g2000504638825381_pallasbulk_1244_6_alg».proof.Proof.Gen.KernelIdeal.Skeleton
import proofs.«106409_g2000504638825381_pallasbulk_1244_6_alg».proof.Proof.Gen.KernelIdeal.Launch
import proofs.«106409_g2000504638825381_pallasbulk_1244_6_alg».proof.Proof.Gen.KernelIdeal.Points
import proofs.«106409_g2000504638825381_pallasbulk_1244_6_alg».proof.Proof.Gen.KernelIdeal.Frame
import proofs.«106409_g2000504638825381_pallasbulk_1244_6_alg».proof.Proof.Gen.ReferenceIdeal
import proofs.«106409_g2000504638825381_pallasbulk_1244_6_alg».proof.Proof.Gen.ReferenceIdeal.Skeleton
import proofs.«106409_g2000504638825381_pallasbulk_1244_6_alg».proof.Proof.Gen.ReferenceIdeal.Launch
import proofs.«106409_g2000504638825381_pallasbulk_1244_6_alg».proof.Proof.Gen.ReferenceIdeal.Points
import proofs.«106409_g2000504638825381_pallasbulk_1244_6_alg».proof.Proof.Gen.ReferenceIdeal.Frame
import proofs.«106409_g2000504638825381_pallasbulk_1244_6_alg».proof.Proof.Gen.Pre_finite_inputs
import proofs.«106409_g2000504638825381_pallasbulk_1244_6_alg».proof.Proof.KernelValue
import proofs.«106409_g2000504638825381_pallasbulk_1244_6_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its value run with the result forgotten. -/
theorem frame_referenceIdeal : Cert.frame_ReferenceIdeal := fun m ρ _ =>
  (θ_run Cert.ReferenceIdeal.defs _ _).mono (fun _ h c => (h c).2) (Cert.ReferenceIdeal.Whole.run m ρ)

/-- No operation was rewritten between the kernel and its idealization. -/
theorem preserves : Cert.preserves_Kernel_KernelIdeal := trivial

/-- From arguments that agree, both programs end with their result at `PoolDense.result` of the arguments. -/
theorem algebraic : Cert.algebraic_KernelIdeal_ReferenceIdeal := by
  intro m ρ m' ρ' _ hagree
  refine ⟨fun c => Cert.PoolDense.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Whole.run m ρ, ?_⟩
  refine (θ_run Cert.ReferenceIdeal.defs _ _).mono (fun _ h c => ⟨(h c).1.trans ?_, (h c).2⟩)
    (Cert.ReferenceIdeal.Whole.run m' ρ')
  rw [(hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
